-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x200x64 : Shape := ⟨3, ![16384, 200, 64]⟩
abbrev S1x64 : Shape := ⟨2, ![1, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x200x64 : S_.BroadcastsInDim S16384x200x64 (![] : Fin 0 → Fin S16384x200x64.rank)
  reducesTo_S16384x200x64_S_d0_1_2 : S16384x200x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S16384x64 .f32) (main_arg1 : FVec F S16384x200x64 .f32) (main_arg2 : FVec F S1x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x200x64 .f32 := Host.absf main_arg1
  let main_cst_0 : FVec F S_ .f32 := constant S_ .f32 0x7F800000#32
  let main_v5 : FVec F S16384x200x64 .f32 := broadcastInDim S16384x200x64 ![] bcast_S_S16384x200x64 main_cst_0
  let main_v6 : IVec S16384x200x64 1 := cmpf .olt main_v4 main_v5
  let main_c_1 : IVec S_ 1 := constantI S_ 1 1#1
  let main_v7 : IVec S_ 1 := (fun x v => Host.reduce IntOp.andi x v reducesTo_S16384x200x64_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S16384x64 : Shape := ⟨2, ![16384, 64]⟩
abbrev S16384x200x64 : Shape := ⟨3, ![16384, 200, 64]⟩
abbrev S1x64 : Shape := ⟨2, ![1, 64]⟩
abbrev S128x64 : Shape := ⟨2, ![128, 64]⟩
abbrev S128x200x64 : Shape := ⟨3, ![128, 200, 64]⟩
abbrev S128x1x64 : Shape := ⟨3, ![128, 1, 64]⟩
abbrev S128x200x1 : Shape := ⟨3, ![128, 200, 1]⟩
abbrev S128x1 : Shape := ⟨2, ![128, 1]⟩
abbrev S128x1x1 : Shape := ⟨3, ![128, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S16384x200x64, .f32⟩
  | .hbm, ⟨2, _⟩ => ⟨S1x64, .f32⟩
  | .hbm, ⟨3, _⟩ => ⟨S16384x64, .f32⟩
  | .local _ .vmem, ⟨0, _⟩ => ⟨S128x64, .f32⟩
  | .local _ .vmem, ⟨1, _⟩ => ⟨S128x64, .f32⟩
  | .local _ .vmem, ⟨2, _⟩ => ⟨S128x200x64, .f32⟩
  | .local _ .vmem, ⟨3, _⟩ => ⟨S128x200x64, .f32⟩
  | .local _ .vmem, ⟨4, _⟩ => ⟨S1x64, .f32⟩
  | .local _ .vmem, ⟨5, _⟩ => ⟨S128x64, .f32⟩
  | .local _ .vmem, ⟨6, _⟩ => ⟨S128x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x64_S128x64_0_0 : ∀ a, (![0, 0] : Fin 2 → Nat) a + S128x64.size a ≤ S128x64.size a
  h_S128x64 : 0 < S128x64.numel
  inb_S128x200x64_S128x200x64_0_0_0 : ∀ a, (![0, 0, 0] : Fin 3 → Nat) a + S128x200x64.size a ≤ S128x200x64.size a
  h_S128x200x64 : 0 < S128x200x64.numel
  inb_S1x64_S1x64_0_0 : ∀ a, (![0, 0] : Fin 2 → Nat) a + S1x64.size a ≤ S1x64.size a
  h_S1x64 : 0 < S1x64.numel
  broadcasts_S1x64_S128x64 : S1x64.Broadcasts S128x64
  shapeCasts_S128x64_S128x1x64 : S128x64.ShapeCasts S128x1x64
  reduces_S128x200x1_S128x1 : S128x200x1.Reduces [1] S128x1
  shapeCasts_S128x1_S128x1x1 : S128x1.ShapeCasts S128x1x1
  broadcasts_S128x1x1_S128x200x1 : S128x1x1.Broadcasts S128x200x1
  shapeCasts_S128x1x64_S128x64 : S128x1x64.ShapeCasts S128x64
  dot_S128x200x64_S128x1x64_S128x200x1_2_2_1_1_0_0_wf : DotDims.WF S128x200x64 S128x1x64 S128x200x1 [2] [2] [1] [1] [0] [0]
  dot_S128x200x1_S128x200x64_S128x1x64_1_1_2_2_0_0_wf : DotDims.WF S128x200x1 S128x200x64 S128x1x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200x64.size a ≤ S16384x200x64.size a
  hwx0_1 : ∀ i : grid0.Coords, EltTy.bits .f32 = 32 ∨ (Rect.block (s := S16384x200x64) S128x200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S16384x64.size a
  hwx0_3 : ∀ i : grid0.Coords, EltTy.bits .f32 = 32 ∨ (Rect.block (s := S16384x64) S128x64.size (cc0_transform_3 i) (hinb0_3 i)).WholeWords (EltTy.packing .f32)

variable [Facts₀]

def dot_S128x200x64_S128x1x64_S128x200x1_2_2_1_1_0_0 : DotDims S128x200x64 S128x1x64 S128x200x1 where
  lhsContracting := [2]
  rhsContracting := [2]
  lhsNonContracting := [1]
  rhsNonContracting := [1]
  lhsBatch := [0]
  rhsBatch := [0]
  wf := dot_S128x200x64_S128x1x64_S128x200x1_2_2_1_1_0_0_wf
def dot_S128x200x1_S128x200x64_S128x1x64_1_1_2_2_0_0 : DotDims S128x200x1 S128x200x64 S128x1x64 where
  lhsContracting := [1]
  rhsContracting := [1]
  lhsNonContracting := [2]
  rhsNonContracting := [2]
  lhsBatch := [0]
  rhsBatch := [0]
  wf := dot_S128x200x1_S128x200x64_S128x1x64_1_1_2_2_0_0_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x200x64 : Shape := ⟨3, ![16384, 200, 64]⟩
abbrev S1x64 : Shape := ⟨2, ![1, 64]⟩
abbrev S16384x1x64 : Shape := ⟨3, ![16384, 1, 64]⟩
abbrev S16384x200x1 : Shape := ⟨3, ![16384, 200, 1]⟩
abbrev S_ : Shape := ⟨0, ![]⟩
abbrev S16384x1 : Shape := ⟨2, ![16384, 1]⟩
abbrev S16384x1x1 : Shape := ⟨3, ![16384, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x200x64, .f32⟩
  | .hbm, ⟨2, _⟩ => ⟨S1x64, .f32⟩
  | .hbm, ⟨3, _⟩ => ⟨S16384x1x64, .f32⟩
  | .hbm, ⟨4, _⟩ => ⟨S16384x200x64, .f32⟩
  | .hbm, ⟨5, _⟩ => ⟨S16384x200x64, .f32⟩
  | .hbm, ⟨6, _⟩ => ⟨S16384x200x1, .f32⟩
  | .hbm, ⟨7, _⟩ => ⟨S16384x200x1, .f32⟩
  | .hbm, ⟨8, _⟩ => ⟨S_, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1x1, .f32⟩
  | .hbm, ⟨14, _⟩ => ⟨S16384x200x1, .f32⟩
  | .hbm, ⟨15, _⟩ => ⟨S16384x200x1, .f32⟩
  | .hbm, ⟨16, _⟩ => ⟨S16384x200x1, .f32⟩
  | .hbm, ⟨17, _⟩ => ⟨S_, .f32⟩
  | .hbm, ⟨18, _⟩ => ⟨S16384x1, .f32⟩
  | .hbm, ⟨19, _⟩ => ⟨S16384x1x1, .f32⟩
  | .hbm, ⟨20, _⟩ => ⟨S16384x200x1, .f32⟩
  | .hbm, ⟨21, _⟩ => ⟨S16384x200x1, .f32⟩
  | .hbm, ⟨22, _⟩ => ⟨S16384x200x64, .f32⟩
  | .hbm, ⟨23, _⟩ => ⟨S16384x200x64, .f32⟩
  | .hbm, ⟨24, _⟩ => ⟨S_, .f32⟩
  | .hbm, ⟨25, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S16384x64_S16384x1x64_0_2 : S16384x64.BroadcastsInDim S16384x1x64 (![0, 2] : Fin 2 → Fin S16384x1x64.rank)
  bcast_S16384x1x64_S16384x200x64_0_1_2 : S16384x1x64.BroadcastsInDim S16384x200x64 (![0, 1, 2] : Fin 3 → Fin S16384x200x64.rank)
  reducesTo_S16384x200x1_S16384x1_d1 : S16384x200x1.ReducesTo [1] S16384x1
  h_S_ : 0 < S_.numel
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x1x1_S16384x200x1_0_1_2 : S16384x1x1.BroadcastsInDim S16384x200x1 (![0, 1, 2] : Fin 3 → Fin S16384x200x1.rank)
  bcast_S16384x200x1_S16384x200x64_0_1_2 : S16384x200x1.BroadcastsInDim S16384x200x64 (![0, 1, 2] : Fin 3 → Fin S16384x200x64.rank)
  reducesTo_S16384x200x64_S16384x64_d1 : S16384x200x64.ReducesTo [1] S16384x64
  dot_S16384x200x64_S1x64_S16384x200x1_2_1_01_0_n_n_wf : DotDims.WF S16384x200x64 S1x64 S16384x200x1 [2] [1] [0, 1] [0] [] []

variable [Facts₀]

def dot_S16384x200x64_S1x64_S16384x200x1_2_1_01_0_n_n : DotDims S16384x200x64 S1x64 S16384x200x1 where
  lhsContracting := [2]
  rhsContracting := [1]
  lhsNonContracting := [0, 1]
  rhsNonContracting := [0]
  lhsBatch := []
  rhsBatch := []
  wf := dot_S16384x200x64_S1x64_S16384x200x1_2_1_01_0_n_n_wf

class Facts : Prop extends Facts₀ where

variable [Facts]
-- ==== Proof.PoolSpec.lean ====
/-
  Attention pooling of one query over its keys, as one function on the extended reals.

  For one batch row: a query `q`, a weight vector `w` (both of length 64) and 200 keys `k l` (each of length 64).
    * the score of key `l` is `tanh (∑ c, k l c * (q c * w c))`;
    * `top` is the largest score, as the fold of `max` from `-∞` (the word `0xFF800000`);
    * the weight of key `l` is the softmax entry `exp (s l - top) / ∑ l', exp (s l' - top)`;
    * the pooled row is `∑ l, weight l * k l d`.
  `pool` is this row function applied to every row of a batch of any extent `B`: the same definition reads a block of
  128 rows and the whole array of 16384 rows, and a block of `pool` is `pool` of the blocks because row `p` of the
  result depends on row `p` of the query and of the keys only.
  The one algebraic law needed later is associativity of the product on the extended reals, `(k * q) * w = k * (q * w)`,
  which holds at the infinities too (`score_assoc`); no finiteness is used anywhere.
-/
import Idealize.ShloMosaic.PureOps.Ideal
import Idealize.ShloMosaic.PureOps.Ideal.Laws
import Idealize.ShloMosaic.Lib.ValueIdx

noncomputable section

namespace Cert.AttnPool

open Idealize.ShloMosaic Idealize.ShloMosaic.ValueIdx

/-- The score of key `l`: `tanh` of the key's dot product with the weighted query `q ⊙ w`. -/
def score (q w : Fin 64 → EReal) (k : Fin 200 → Fin 64 → EReal) (l : Fin 200) : EReal :=
  Ideal.tanh (∑ c : Fin 64, k l c * (q c * w c))

/-- The largest of 200 scores, folded from `-∞`. -/
def top (s : Fin 200 → EReal) : EReal :=
  (Finset.univ : Finset (Fin 200)).fold max (Ideal.ofBits .f32 0xFF800000#32) s

/-- The softmax weight of key `l`, shifted by the largest score. -/
def weight (s : Fin 200 → EReal) (l : Fin 200) : EReal :=
  Ideal.div (Ideal.exp (s l - top s)) (∑ l' : Fin 200, Ideal.exp (s l' - top s))

/-- One pooled row: the keys averaged with their softmax weights. -/
def rowPool (q w : Fin 64 → EReal) (k : Fin 200 → Fin 64 → EReal) (d : Fin 64) : EReal :=
  ∑ l : Fin 200, weight (score q w k) l * k l d

/-- Every row of a batch of `B` queries pooled over its own keys, with the one shared weight row. -/
def pool {B : ℕ} (Q : (⟨2, ![B, 64]⟩ : Shape).Idx → EReal) (K : (⟨3, ![B, 200, 64]⟩ : Shape).Idx → EReal)
    (W : (⟨2, ![1, 64]⟩ : Shape).Idx → EReal) : (⟨2, ![B, 64]⟩ : Shape).Idx → EReal :=
  fun i => rowPool (fun c => Q (ix2 (i 0) c)) (fun c => W (ix2 (0 : Fin 1) c)) (fun l c => K (ix3 (i 0) l c)) (i 1)

theorem pool_ix2 {B : ℕ} (Q : (⟨2, ![B, 64]⟩ : Shape).Idx → EReal) (K : (⟨3, ![B, 200, 64]⟩ : Shape).Idx → EReal)
    (W : (⟨2, ![1, 64]⟩ : Shape).Idx → EReal) (p : Fin B) (d : Fin 64) :
    pool Q K W (ix2 p d) = rowPool (fun c => Q (ix2 p c)) (fun c => W (ix2 (0 : Fin 1) c)) (fun l c => K (ix3 p l c)) d := rfl

/-- The score with the query multiplied into the key first and the weight last is the same score: the product of extended
    reals is associative, at the infinities too. -/
theorem score_assoc (q w : Fin 64 → EReal) (k : Fin 200 → Fin 64 → EReal) (l : Fin 200) :
    Ideal.tanh (∑ c : Fin 64, (k l c * q c) * w c) = score q w k l := by
  unfold score
  exact congrArg Ideal.tanh (Finset.sum_congr rfl fun c _ => mul_assoc _ _ _)

/-- `max` against `-∞` changes nothing. -/
theorem max_negInf (x : EReal) : max (Ideal.ofBits .f32 0xFF800000#32) x = x := by
  have h : Ideal.ofBits .f32 0xFF800000#32 = ⊥ := by simp [Ideal.ofBits, Ideal.ieee]
  rw [h]; exact max_eq_right bot_le

end Cert.AttnPool

end
-- ==== Proof.LibMiddleUnitAxis.lean ====
/-
  Layout operations around a UNIT AXIS in the middle or at the end of a small shape, read at an index written by
  coordinates. Over any element type and any extents `a`, `b`:
    * an `[a, b]` array cast to `[a, 1, b]` read at `(p, u, c)` is the operand at `(p, c)`, and back: an `[a, 1, b]` array
      cast to `[a, b]` read at `(p, c)` is the operand at `(p, 0, c)`;
    * an `[a, 1]` column cast to `[a, 1, 1]` read at `(p, u, v)` is the column at `(p, 0)`;
    * an `[a, 1, 1]` array broadcast to `[a, b, 1]` read at `(p, l, v)` is the operand at `(p, 0, 0)`.
  Each is the library's read-at-an-index lemma of the operation with the row-major arithmetic discharged: a unit axis
  contributes a factor `1` and a coordinate `0` to a row-major position.
-/
import Idealize.ShloMosaic.Lib.Pipeline.Value
import Idealize.ShloMosaic.Lib.ValueIdx

namespace Cert.MiddleUnitAxis

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, 1, b]` array cast to `[a, b]` reads, at `(p, c)`, the operand at `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, 1]` column cast to `[a, 1, 1]` reads, at `(p, u, v)`, the column at `(p, 0)`. -/
theorem shapeCast_a1_a11_apply {a : ℕ} (x : (⟨2, ![a, 1]⟩ : Shape).Idx → α)
    (h : (⟨2, ![a, 1]⟩ : Shape).ShapeCasts ⟨3, ![a, 1, 1]⟩) (p : Fin a) (u v : Fin 1) :
    shapeCast ⟨3, ![a, 1, 1]⟩ x h (ix3 p u v) = x (ix2 p (0 : Fin 1)) :=
  shapeCast_apply x h _ _ (by
    have hu : u.val = 0 := by omega
    have hv : v.val = 0 := by omega
    rw [Shape.rowMajor_val_three, Shape.rowMajor_val_two]
    show p.val * 1 + 0 = (p.val * 1 + u.val) * 1 + v.val
    rw [hu, hv, Nat.mul_one, Nat.add_zero, Nat.mul_one, Nat.add_zero])

/-- An `[a, 1, 1]` array broadcast to `[a, b, 1]` reads, at `(p, l, v)`, the operand at `(p, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (p : Fin a) (l : Fin b) (v : Fin 1) :
    broadcastTo ⟨3, ![a, b, 1]⟩ x h (ix3 p l v) = x (ix3 p (0 : Fin 1) (0 : Fin 1)) := by
  refine broadcastTo_apply x h (ix3 p l v) (ix3 p (0 : Fin 1) (0 : Fin 1)) fun ax => ?_
  match ax with
  | ⟨0, _⟩ =>
    show p.val = if a = 1 then 0 else p.val
    split
    · have := p.isLt; omega
    · rfl
  | ⟨1, _⟩ => show 0 = if (1 : ℕ) = 1 then 0 else l.val; rw [if_pos rfl]
  | ⟨2, _⟩ => show 0 = if (1 : ℕ) = 1 then 0 else v.val; rw [if_pos rfl]

end Cert.MiddleUnitAxis
-- ==== Proof.KernelStages.lean ====
/-
  The kernel body's arithmetic on one block of 128 rows, stage by stage, read at an index (at the ideal instance).

  The body computes, from a block `x0` of queries [128, 64], a block `x1` of keys [128, 200, 64] and the weight row `x2` [1, 64]:
    * the weighted query `x0 ⊙ x2` (the weight row broadcast down the rows), given a unit middle axis;
    * the SCORES: a matrix product batched over the row `p`, contracting the 64 features — at `(p, l, 0)` the sum over `c` of
      `x1 (p, l, c) * (x0 (p, c) * x2 (0, c))` — then `tanh`: the score of key `l` of row `p`;
    * the row maximum of the scores (a reduction along the keys from `-∞`), broadcast back along the keys, subtracted,
      exponentiated;
    * the row sum of those exponentials, broadcast back, divided into them: the softmax weights;
    * the POOLED row: a matrix product batched over `p`, contracting the 200 keys — at `(p, 0, d)` the sum over `l` of
      `weight (p, l, 0) * x1 (p, l, d)` — with its unit middle axis dropped.
  Each stage is named (`scoresV`, `expV`, `weightsV`), the body's stored value is their composition (`pay_eq`), and each is
  read at the index `(p, l, 0)` in terms of the row functions of the specification (`Cert.AttnPool`). The result:
  `pay_apply`, the stored value at `(p, d)` is `rowPool` of row `p` of the blocks.
-/
import proofs.«166064_j68624987455577_2_alg».proof.Proof.Gen.KernelIdeal.Skeleton
import proofs.«166064_j68624987455577_2_alg».proof.Proof.PoolSpec
import proofs.«166064_j68624987455577_2_alg».proof.Proof.LibMiddleUnitAxis
import Idealize.ShloMosaic.PureOps.Ideal.Laws
import Idealize.ShloMosaic.Lib.ValueIdx
import Idealize.ShloMosaic.Lib.ValueLayout

noncomputable section

namespace Cert.KernelIdeal.Stages

open Cert.KernelIdeal Cert.KernelIdeal.Gen Idealize.ShloMosaic Idealize.ShloMosaic.ValueIdx Cert.MiddleUnitAxis

/-! ## The two batched matrix products: which operand entries meet -/

/-- The scores product: the left operand is read at the output's row and key, -/
theorem scoreDot_lhs0 (i : S128x200x1.Idx) (q : dot_S128x200x64_S128x1x64_S128x200x1_2_2_1_1_0_0.contr.Idx) :
    (dot_S128x200x64_S128x1x64_S128x200x1_2_2_1_1_0_0.lhsIdx i q 0).val = (i 0).val := by
  unfold DotDims.lhsIdx
  rw [dif_pos (show (0 : Fin S128x200x64.rank) ∈ dot_S128x200x64_S128x1x64_S128x200x1_2_2_1_1_0_0.lhsBatch by decide)]
  rfl
theorem scoreDot_lhs1 (i : S128x200x1.Idx) (q : dot_S128x200x64_S128x1x64_S128x200x1_2_2_1_1_0_0.contr.Idx) :
    (dot_S128x200x64_S128x1x64_S128x200x1_2_2_1_1_0_0.lhsIdx i q 1).val = (i 1).val := by
  unfold DotDims.lhsIdx
  rw [dif_neg (show ¬(1 : Fin S128x200x64.rank) ∈ dot_S128x200x64_S128x1x64_S128x200x1_2_2_1_1_0_0.lhsBatch by decide), dif_pos (show (1 : Fin S128x200x64.rank) ∈ dot_S128x200x64_S128x1x64_S128x200x1_2_2_1_1_0_0.lhsNonContracting by decide)]
  rfl
/-- and at the contracted feature; -/
theorem scoreDot_lhs2 (i : S128x200x1.Idx) (q : dot_S128x200x64_S128x1x64_S128x200x1_2_2_1_1_0_0.contr.Idx) :
    (dot_S128x200x64_S128x1x64_S128x200x1_2_2_1_1_0_0.lhsIdx i q 2).val = (q ⟨0, by decide⟩).val :=
  dot_S128x200x64_S128x1x64_S128x200x1_2_2_1_1_0_0.lhsIdx_val_of_single rfl i q
/-- the right operand at the output's row, its own unit axis, and the contracted feature. -/
theorem scoreDot_rhs0 (i : S128x200x1.Idx) (q : dot_S128x200x64_S128x1x64_S128x200x1_2_2_1_1_0_0.contr.Idx) :
    (dot_S128x200x64_S128x1x64_S128x200x1_2_2_1_1_0_0.rhsIdx i q 0).val = (i 0).val := by
  unfold DotDims.rhsIdx
  rw [dif_pos (show (0 : Fin S128x1x64.rank) ∈ dot_S128x200x64_S128x1x64_S128x200x1_2_2_1_1_0_0.rhsBatch by decide)]
  rfl
theorem scoreDot_rhs1 (i : S128x200x1.Idx) (q : dot_S128x200x64_S128x1x64_S128x200x1_2_2_1_1_0_0.contr.Idx) :
    (dot_S128x200x64_S128x1x64_S128x200x1_2_2_1_1_0_0.rhsIdx i q 1).val = (i 2).val := by
  unfold DotDims.rhsIdx
  rw [dif_neg (show ¬(1 : Fin S128x1x64.rank) ∈ dot_S128x200x64_S128x1x64_S128x200x1_2_2_1_1_0_0.rhsBatch by decide), dif_pos (show (1 : Fin S128x1x64.rank) ∈ dot_S128x200x64_S128x1x64_S128x200x1_2_2_1_1_0_0.rhsNonContracting by decide)]
  rfl
theorem scoreDot_rhs2 (i : S128x200x1.Idx) (q : dot_S128x200x64_S128x1x64_S128x200x1_2_2_1_1_0_0.contr.Idx) :
    (dot_S128x200x64_S128x1x64_S128x200x1_2_2_1_1_0_0.rhsIdx i q 2).val = (q ⟨0, by decide⟩).val :=
  dot_S128x200x64_S128x1x64_S128x200x1_2_2_1_1_0_0.rhsIdx_val_of_single rfl i q

/-- The scores product into the zero accumulator, at row `p` and key `l`: the dot product over the 64 features. -/
theorem scoreDot_apply (a : FVec Ideal S128x200x64 .f32) (b : FVec Ideal S128x1x64 .f32) (p : Fin 128) (l : Fin 200) :
    matmul dot_S128x200x64_S128x1x64_S128x200x1_2_2_1_1_0_0 none a b (constant S128x200x1 .f32 0x00000000#32) (ix3 p l (0 : Fin 1))
      = ∑ c : Fin 64, a (ix3 p l c) * b (ix3 p (0 : Fin 1) c) := by
  simp only [matmul]
  rw [Ideal.matmul_constant_zero_apply, ← Equiv.sum_comp (contrEquiv1 dot_S128x200x64_S128x1x64_S128x200x1_2_2_1_1_0_0 64 rfl rfl).symm]
  refine Finset.sum_congr rfl fun c _ => ?_
  have hk := contrEquiv1_symm_val dot_S128x200x64_S128x1x64_S128x200x1_2_2_1_1_0_0 64 rfl rfl c
  have el : dot_S128x200x64_S128x1x64_S128x200x1_2_2_1_1_0_0.lhsIdx (ix3 p l (0 : Fin 1)) ((contrEquiv1 dot_S128x200x64_S128x1x64_S128x200x1_2_2_1_1_0_0 64 rfl rfl).symm c) = ix3 p l c := funext fun ax => Fin.ext (by
    match ax with
    | ⟨0, _⟩ => exact scoreDot_lhs0 _ _
    | ⟨1, _⟩ => exact scoreDot_lhs1 _ _
    | ⟨2, _⟩ => exact (scoreDot_lhs2 _ _).trans hk)
  have er : dot_S128x200x64_S128x1x64_S128x200x1_2_2_1_1_0_0.rhsIdx (ix3 p l (0 : Fin 1)) ((contrEquiv1 dot_S128x200x64_S128x1x64_S128x200x1_2_2_1_1_0_0 64 rfl rfl).symm c) = ix3 p (0 : Fin 1) c := funext fun ax => Fin.ext (by
    match ax with
    | ⟨0, _⟩ => exact scoreDot_rhs0 _ _
    | ⟨1, _⟩ => exact scoreDot_rhs1 _ _
    | ⟨2, _⟩ => exact (scoreDot_rhs2 _ _).trans hk)
  rw [el, er]

/-- The pooling product: the left operand (the weights) is read at the output's row, the contracted key, and its unit axis, -/
theorem poolDot_lhs0 (i : S128x1x64.Idx) (q : dot_S128x200x1_S128x200x64_S128x1x64_1_1_2_2_0_0.contr.Idx) :
    (dot_S128x200x1_S128x200x64_S128x1x64_1_1_2_2_0_0.lhsIdx i q 0).val = (i 0).val := by
  unfold DotDims.lhsIdx
  rw [dif_pos (show (0 : Fin S128x200x1.rank) ∈ dot_S128x200x1_S128x200x64_S128x1x64_1_1_2_2_0_0.lhsBatch by decide)]
  rfl
theorem poolDot_lhs1 (i : S128x1x64.Idx) (q : dot_S128x200x1_S128x200x64_S128x1x64_1_1_2_2_0_0.contr.Idx) :
    (dot_S128x200x1_S128x200x64_S128x1x64_1_1_2_2_0_0.lhsIdx i q 1).val = (q ⟨0, by decide⟩).val :=
  dot_S128x200x1_S128x200x64_S128x1x64_1_1_2_2_0_0.lhsIdx_val_of_single rfl i q
theorem poolDot_lhs2 (i : S128x1x64.Idx) (q : dot_S128x200x1_S128x200x64_S128x1x64_1_1_2_2_0_0.contr.Idx) :
    (dot_S128x200x1_S128x200x64_S128x1x64_1_1_2_2_0_0.lhsIdx i q 2).val = (i 1).val := by
  unfold DotDims.lhsIdx
  rw [dif_neg (show ¬(2 : Fin S128x200x1.rank) ∈ dot_S128x200x1_S128x200x64_S128x1x64_1_1_2_2_0_0.lhsBatch by decide), dif_pos (show (2 : Fin S128x200x1.rank) ∈ dot_S128x200x1_S128x200x64_S128x1x64_1_1_2_2_0_0.lhsNonContracting by decide)]
  rfl
/-- the right operand (the keys) at the output's row, the contracted key, and the output's feature. -/
theorem poolDot_rhs0 (i : S128x1x64.Idx) (q : dot_S128x200x1_S128x200x64_S128x1x64_1_1_2_2_0_0.contr.Idx) :
    (dot_S128x200x1_S128x200x64_S128x1x64_1_1_2_2_0_0.rhsIdx i q 0).val = (i 0).val := by
  unfold DotDims.rhsIdx
  rw [dif_pos (show (0 : Fin S128x200x64.rank) ∈ dot_S128x200x1_S128x200x64_S128x1x64_1_1_2_2_0_0.rhsBatch by decide)]
  rfl
theorem poolDot_rhs1 (i : S128x1x64.Idx) (q : dot_S128x200x1_S128x200x64_S128x1x64_1_1_2_2_0_0.contr.Idx) :
    (dot_S128x200x1_S128x200x64_S128x1x64_1_1_2_2_0_0.rhsIdx i q 1).val = (q ⟨0, by decide⟩).val :=
  dot_S128x200x1_S128x200x64_S128x1x64_1_1_2_2_0_0.rhsIdx_val_of_single rfl i q
theorem poolDot_rhs2 (i : S128x1x64.Idx) (q : dot_S128x200x1_S128x200x64_S128x1x64_1_1_2_2_0_0.contr.Idx) :
    (dot_S128x200x1_S128x200x64_S128x1x64_1_1_2_2_0_0.rhsIdx i q 2).val = (i 2).val := by
  unfold DotDims.rhsIdx
  rw [dif_neg (show ¬(2 : Fin S128x200x64.rank) ∈ dot_S128x200x1_S128x200x64_S128x1x64_1_1_2_2_0_0.rhsBatch by decide), dif_pos (show (2 : Fin S128x200x64.rank) ∈ dot_S128x200x1_S128x200x64_S128x1x64_1_1_2_2_0_0.rhsNonContracting by decide)]
  rfl

/-- The pooling product into the zero accumulator, at row `p` and feature `d`: the sum over the 200 keys. -/
theorem poolDot_apply (a : FVec Ideal S128x200x1 .f32) (b : FVec Ideal S128x200x64 .f32) (p : Fin 128) (d : Fin 64) :
    matmul dot_S128x200x1_S128x200x64_S128x1x64_1_1_2_2_0_0 none a b (constant S128x1x64 .f32 0x00000000#32) (ix3 p (0 : Fin 1) d)
      = ∑ l : Fin 200, a (ix3 p l (0 : Fin 1)) * b (ix3 p l d) := by
  simp only [matmul]
  rw [Ideal.matmul_constant_zero_apply, ← Equiv.sum_comp (contrEquiv1 dot_S128x200x1_S128x200x64_S128x1x64_1_1_2_2_0_0 200 rfl rfl).symm]
  refine Finset.sum_congr rfl fun l _ => ?_
  have hk := contrEquiv1_symm_val dot_S128x200x1_S128x200x64_S128x1x64_1_1_2_2_0_0 200 rfl rfl l
  have el : dot_S128x200x1_S128x200x64_S128x1x64_1_1_2_2_0_0.lhsIdx (ix3 p (0 : Fin 1) d) ((contrEquiv1 dot_S128x200x1_S128x200x64_S128x1x64_1_1_2_2_0_0 200 rfl rfl).symm l) = ix3 p l (0 : Fin 1) := funext fun ax => Fin.ext (by
    match ax with
    | ⟨0, _⟩ => exact poolDot_lhs0 _ _
    | ⟨1, _⟩ => exact (poolDot_lhs1 _ _).trans hk
    | ⟨2, _⟩ => exact poolDot_lhs2 _ _)
  have er : dot_S128x200x1_S128x200x64_S128x1x64_1_1_2_2_0_0.rhsIdx (ix3 p (0 : Fin 1) d) ((contrEquiv1 dot_S128x200x1_S128x200x64_S128x1x64_1_1_2_2_0_0 200 rfl rfl).symm l) = ix3 p l d := funext fun ax => Fin.ext (by
    match ax with
    | ⟨0, _⟩ => exact poolDot_rhs0 _ _
    | ⟨1, _⟩ => exact (poolDot_rhs1 _ _).trans hk
    | ⟨2, _⟩ => exact poolDot_rhs2 _ _)
  rw [el, er]

/-! ## The two reductions along the keys -/

/-- Inserting key `l` into the reduced index `(p, 0)` gives `(p, l, 0)`. -/
theorem lift_keys (h : S128x200x1.Reduces [1] S128x1) (p : Fin 128) (l : Fin 200) :
    h.lift (ix2 p (0 : Fin 1)) l = ix3 p l (0 : Fin 1) :=
  funext fun ax => Fin.ext (by match ax with | ⟨0, _⟩ => rfl | ⟨1, _⟩ => rfl | ⟨2, _⟩ => rfl)

/-- The row maximum from `-∞`, at row `p`: the largest of the row's 200 entries. -/
theorem rowMax_apply (x : FVec Ideal S128x200x1 .f32) (h : S128x200x1.Reduces [1] S128x1) (hφ : FKind.Formats .f32)
    (hacc : (0xFF800000#32 : BitVec 32) = 0xFF800000#32) (p : Fin 128) :
    multiReduction .maximumf [1] S128x1 x 0xFF800000#32 h hφ hacc (ix2 p (0 : Fin 1))
      = Cert.AttnPool.top (fun l => x (ix3 p l (0 : Fin 1))) :=
  (Ideal.multiReduction_maximumf_single x 0xFF800000#32 h hφ hacc (ix2 p (0 : Fin 1))).trans
    (congrArg (fun f : Fin 200 → EReal => Finset.fold max (Ideal.ofBits .f32 0xFF800000#32) f (Finset.univ : Finset (Fin 200)))
      (funext fun l => congrArg x (lift_keys h p l)))

/-- The row sum, at row `p`: the sum of the row's 200 entries. -/
theorem rowSum_apply (x : FVec Ideal S128x200x1 .f32) (h : S128x200x1.Reduces [1] S128x1) (hφ : FKind.Formats .f32)
    (hacc : (0x00000000#32 : BitVec 32) = 0x00000000#32) (p : Fin 128) :
    multiReduction .add [1] S128x1 x 0x00000000#32 h hφ hacc (ix2 p (0 : Fin 1))
      = ∑ l : Fin 200, x (ix3 p l (0 : Fin 1)) :=
  (Ideal.multiReduction_add_single x 0x00000000#32 h hφ hacc (ix2 p (0 : Fin 1))).trans
    (Finset.sum_congr rfl fun l _ => congrArg x (lift_keys h p l))

/-! ## The body's stages -/

/-- The scores of a block: `tanh` of the keys against the weighted queries. -/
def scoresV (x0 : FVec Ideal S128x64 .f32) (x1 : FVec Ideal S128x200x64 .f32) (x2 : FVec Ideal S1x64 .f32) : FVec Ideal S128x200x1 .f32 :=
  tanh (matmul dot_S128x200x64_S128x1x64_S128x200x1_2_2_1_1_0_0 none x1
    (shapeCast S128x1x64 (mulf x0 (broadcastTo S128x64 x2 broadcasts_S1x64_S128x64)) shapeCasts_S128x64_S128x1x64)
    (constant S128x200x1 .f32 0x00000000#32))

/-- The exponentials of a block of scores, each row shifted by its maximum. -/
def expV (T : FVec Ideal S128x200x1 .f32) : FVec Ideal S128x200x1 .f32 :=
  exp (subf T (broadcastTo S128x200x1 (shapeCast S128x1x1
    (multiReduction .maximumf [1] S128x1 T 0xFF800000#32 reduces_S128x200x1_S128x1 (.inl rfl) rfl)
    shapeCasts_S128x1_S128x1x1) broadcasts_S128x1x1_S128x200x1))

/-- A block of nonnegative numbers, each row divided by its sum. -/
def weightsV (E : FVec Ideal S128x200x1 .f32) : FVec Ideal S128x200x1 .f32 :=
  divf E (broadcastTo S128x200x1 (shapeCast S128x1x1
    (multiReduction .add [1] S128x1 E 0x00000000#32 reduces_S128x200x1_S128x1 (.inl rfl) rfl)
    shapeCasts_S128x1_S128x1x1) broadcasts_S128x1x1_S128x200x1)

/-- The value the body stores is the pooling product of the softmax weights of the scores with the keys. -/
theorem pay_eq (x0 : FVec Ideal S128x64 .f32) (x1 : FVec Ideal S128x200x64 .f32) (x2 : FVec Ideal S1x64 .f32) :
    k0_pay1 (F := Ideal) x0 x1 x2
      = shapeCast S128x64 (matmul dot_S128x200x1_S128x200x64_S128x1x64_1_1_2_2_0_0 none (weightsV (expV (scoresV x0 x1 x2))) x1
          (constant S128x1x64 .f32 0x00000000#32)) shapeCasts_S128x1x64_S128x64 := rfl

/-- The score of key `l` of row `p`. -/
theorem scoresV_apply (x0 : FVec Ideal S128x64 .f32) (x1 : FVec Ideal S128x200x64 .f32) (x2 : FVec Ideal S1x64 .f32)
    (p : Fin 128) (l : Fin 200) :
    scoresV x0 x1 x2 (ix3 p l (0 : Fin 1))
      = Cert.AttnPool.score (fun c => x0 (ix2 p c)) (fun c => x2 (ix2 (0 : Fin 1) c)) (fun l c => x1 (ix3 p l c)) l := by
  unfold scoresV Cert.AttnPool.score
  refine congrArg Ideal.tanh ((scoreDot_apply _ _ p l).trans (Finset.sum_congr rfl fun c _ => ?_))
  rw [shapeCast_ab_a1b_apply]
  refine congrArg (x1 (ix3 p l c) * ·) ?_
  refine congrArg (x0 (ix2 p c) * ·) ?_
  exact broadcastTo_1b_ab_apply x2 _ p c

/-- The shifted exponential of entry `l` of row `p`. -/
theorem expV_apply (T : FVec Ideal S128x200x1 .f32) (p : Fin 128) (l : Fin 200) :
    expV T (ix3 p l (0 : Fin 1))
      = Ideal.exp (T (ix3 p l (0 : Fin 1)) - Cert.AttnPool.top (fun l' => T (ix3 p l' (0 : Fin 1)))) := by
  unfold expV
  refine congrArg (fun z => Ideal.exp (T (ix3 p l (0 : Fin 1)) - z)) ?_
  rw [broadcastTo_a11_ab1_apply, shapeCast_a1_a11_apply]
  exact rowMax_apply T _ _ _ p

/-- Entry `l` of row `p` divided by the row's sum. -/
theorem weightsV_apply (E : FVec Ideal S128x200x1 .f32) (p : Fin 128) (l : Fin 200) :
    weightsV E (ix3 p l (0 : Fin 1))
      = Ideal.div (E (ix3 p l (0 : Fin 1))) (∑ l' : Fin 200, E (ix3 p l' (0 : Fin 1))) := by
  unfold weightsV
  refine congrArg (Ideal.div (E (ix3 p l (0 : Fin 1)))) ?_
  rw [broadcastTo_a11_ab1_apply, shapeCast_a1_a11_apply]
  exact rowSum_apply E _ _ _ p

/-- THE BODY'S STORED VALUE at row `p` and feature `d` is the pooled row of row `p` of the blocks. -/
theorem pay_apply (x0 : FVec Ideal S128x64 .f32) (x1 : FVec Ideal S128x200x64 .f32) (x2 : FVec Ideal S1x64 .f32)
    (p : Fin 128) (d : Fin 64) :
    k0_pay1 (F := Ideal) x0 x1 x2 (ix2 p d)
      = Cert.AttnPool.rowPool (fun c => x0 (ix2 p c)) (fun c => x2 (ix2 (0 : Fin 1) c)) (fun l c => x1 (ix3 p l c)) d := by
  rw [pay_eq, shapeCast_a1b_ab_apply, poolDot_apply]
  unfold Cert.AttnPool.rowPool Cert.AttnPool.weight
  refine Finset.sum_congr rfl fun l _ => ?_
  rw [weightsV_apply]
  simp only [expV_apply, scoresV_apply]

end Cert.KernelIdeal.Stages

end
-- ==== Proof.KernelArray.lean ====
/-
  From blocks to the whole array: after the kernel's run the result array is `pool` of the three argument arrays.

  The grid has 128 points. At point `t` the query window's block is rows `128 t … 128 t + 127` of the queries, the key
  window's block the same rows of the keys, the weight window's block the whole weight row, and the output window's
  block the same rows of the result (`idx_facts`: the printed index maps, decided over the grid). The body stores into
  the output block, at `(p, d)`, the pooled row of row `p` of its input blocks (`Stages.pay_apply`); row `p` of the
  blocks at point `t` is row `128 t + p` of the arrays (`qblk_apply`, `kblk_apply`, `wblk_apply`), and `pool` reads row
  `r` of the arrays only, so what point `t` writes back is block `t` of `pool` of the whole arrays (`flushed_eq`). Row `r`
  of the result lies in the block of point `r / 128` (`cover`), so the blocks fill the array and it ends at `pool` (`final`).
-/
import proofs.«166064_j68624987455577_2_alg».proof.Proof.Gen.KernelIdeal.Value
import proofs.«166064_j68624987455577_2_alg».proof.Proof.KernelStages
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array after the run: every query row pooled over its own keys. -/
abbrev G (c : Dev nD) : S16384x64.Idx → EReal :=
  Cert.AttnPool.pool (V m c main_arg0 : S16384x64.Idx → EReal) (V m c main_arg1 : S16384x200x64.Idx → EReal)
    (V m c main_arg2 : S1x64.Idx → EReal)

/-- The printed index maps over the grid: at point `t` the query, key and output windows sit at block row `t`, the
    weight window at its one block. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the query block at point `t` is row `128 t + p` of the queries. -/
theorem qblk_apply (c : Dev nD) (t : Fin cfg0.N) (p : Fin 128) (cc : Fin 64) (r : Fin 16384) (hr : r.val = t.val * 128 + p.val) :
    (iblk m c 0 t : FVec Ideal S128x64 .f32) (ix2 p cc) = (V m c main_arg0 : S16384x64.Idx → EReal) (ix2 r cc) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * p.val = r.val; rw [e0, hr]; omega
  | ⟨1, _⟩ => show win0_0.index t (1 : Fin 2) * 64 + 1 * cc.val = cc.val; rw [e1]; omega

/-- Row `p` of the key block at point `t` is row `128 t + p` of the keys. -/
theorem kblk_apply (c : Dev nD) (t : Fin cfg0.N) (p : Fin 128) (l : Fin 200) (cc : Fin 64) (r : Fin 16384)
    (hr : r.val = t.val * 128 + p.val) :
    (iblk m c 1 t : FVec Ideal S128x200x64 .f32) (ix3 p l cc) = (V m c main_arg1 : S16384x200x64.Idx → EReal) (ix3 r l cc) := by
  obtain ⟨-, -, e2, e3, e4, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 128 + 1 * p.val = r.val; rw [e2, hr]; omega
  | ⟨1, _⟩ => show win0_1.index t (1 : Fin 3) * 200 + 1 * l.val = l.val; rw [e3]; omega
  | ⟨2, _⟩ => show win0_1.index t (2 : Fin 3) * 64 + 1 * cc.val = cc.val; rw [e4]; omega

/-- The weight block at every point is the weight row. -/
theorem wblk_apply (c : Dev nD) (t : Fin cfg0.N) (cc : Fin 64) :
    (iblk m c 2 t : FVec Ideal S1x64 .f32) (ix2 (0 : Fin 1) cc) = (V m c main_arg2 : S1x64.Idx → EReal) (ix2 (0 : Fin 1) cc) := by
  obtain ⟨-, -, -, -, -, e5, e6, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 1 + 1 * 0 = 0; rw [e5]
  | ⟨1, _⟩ => show win0_2.index t (1 : Fin 2) * 64 + 1 * cc.val = cc.val; rw [e6]; omega

/-- Over plain arrays: when `x0`, `x1` are rows `128 n …` of `Q`, `K` and `x2` is the row `W`, the body's stored value at
    `y` is `pool Q K W` at the index `128 n` rows further down. -/
theorem pay_block (Q : S16384x64.Idx → EReal) (K : S16384x200x64.Idx → EReal) (W : S1x64.Idx → EReal)
    (x0 : FVec Ideal S128x64 .f32) (x1 : FVec Ideal S128x200x64 .f32) (x2 : FVec Ideal S1x64 .f32) (n : ℕ)
    (h0 : ∀ (p : Fin 128) (cc : Fin 64) (r : Fin 16384), r.val = n * 128 + p.val → x0 (ix2 p cc) = Q (ix2 r cc))
    (h1 : ∀ (p : Fin 128) (l : Fin 200) (cc : Fin 64) (r : Fin 16384), r.val = n * 128 + p.val → x1 (ix3 p l cc) = K (ix3 r l cc))
    (h2 : ∀ cc : Fin 64, x2 (ix2 (0 : Fin 1) cc) = W (ix2 (0 : Fin 1) cc))
    (y : S128x64.Idx) (i : S16384x64.Idx) (hi0 : (i 0).val = n * 128 + (y 0).val) (hi1 : (i 1).val = (y 1).val) :
    k0_pay1 (F := Ideal) x0 x1 x2 y = Cert.AttnPool.pool Q K W i := by
  obtain ⟨p, d, rfl⟩ : ∃ (p : Fin 128) (d : Fin 64), y = ix2 p d := ⟨y 0, y 1, eq_ix2 y⟩
  obtain ⟨r, d', rfl⟩ : ∃ (r : Fin 16384) (d' : Fin 64), i = ix2 r d' := ⟨i 0, i 1, eq_ix2 i⟩
  obtain rfl : d' = d := Fin.ext hi1
  have hr : r.val = n * 128 + p.val := hi0
  rw [Stages.pay_apply, Cert.AttnPool.pool_ix2]
  have e0 : (fun cc => x0 (ix2 p cc)) = fun cc => Q (ix2 r cc) := funext fun cc => h0 p cc r hr
  have e1 : (fun l cc => x1 (ix3 p l cc)) = fun l cc => K (ix3 r l cc) := funext fun l => funext fun cc => h1 p l cc r hr
  have e2 : (fun cc => x2 (ix2 (0 : Fin 1) cc)) = fun cc => W (ix2 (0 : Fin 1) cc) := funext h2
  rw [e0, e1, e2]

/-- WHAT POINT `t` WRITES BACK is block `t` of `pool` of the argument arrays. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz2]
  simp only [View.ld_unit_zero (S := S128x64) hz2, View.ld_unit_zero (S := S128x200x64) hz3, View.ld_unit_zero (S := S1x64) hz2]
  obtain ⟨-, -, -, -, -, -, -, e7, e8⟩ := idx_facts t
  funext j
  show k0_pay1 (F := Ideal) (iblk m c 0 t) (iblk m c 1 t) (iblk m c 2 t) j = G m c (((cfg0.win 3).blk t).view.emb j)
  refine pay_block (V m c main_arg0) (V m c main_arg1) (V m c main_arg2) (iblk m c 0 t) (iblk m c 1 t) (iblk m c 2 t) t.val
    (fun p cc r hr => qblk_apply m c t p cc r hr) (fun p l cc r hr => kblk_apply m c t p l cc r hr) (fun cc => wblk_apply m c t cc)
    j (((cfg0.win 3).blk t).view.emb j) ?_ ?_
  · show win0_3.index t (0 : Fin 2) * 128 + 1 * (j 0).val = t.val * 128 + (j 0).val
    rw [e7]; omega
  · show win0_3.index t (1 : Fin 2) * 64 + 1 * (j 1).val = (j 1).val
    rw [e8]; omega

/-- An index of the result array is in point `t`'s block iff each coordinate is in the block's range on its axis. -/
theorem mem_blk (t : Fin cfg0.N) (i : S16384x64.Idx) :
    i ∈ ((cfg0.win 3).blk t).view.set ↔ ∀ a : Fin 2, win0_3.index t a * S128x64.size a ≤ (i a).val ∧ (i a).val < win0_3.index t a * S128x64.size a + S128x64.size a := by
  show i ∈ ((View.whole main_v0).slice (win0_3.rect t)).set ↔ _
  rw [View.set_slice_whole, Rect.mem_set_unit]
  exact Iff.rfl

/-- Row `r` of the result is written back by point `r / 128`: the blocks fill the array. -/
theorem cover (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  have ht : (i 0).val / 128 < cfg0.N := by rw [show cfg0.N = 128 from N_0]; omega
  obtain ⟨-, -, -, -, -, -, -, e7, e8⟩ := idx_facts ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    rw [e7]; show (i 0).val / 128 * 128 ≤ (i 0).val ∧ (i 0).val < (i 0).val / 128 * 128 + 128; omega
  | ⟨1, _⟩ =>
    show win0_3.index ⟨(i 0).val / 128, ht⟩ (1 : Fin 2) * 64 ≤ (i 1).val ∧ (i 1).val < win0_3.index ⟨(i 0).val / 128, ht⟩ (1 : Fin 2) * 64 + 64
    rw [e8]; omega

/-- THE RESULT ARRAY after the run is `pool` of the argument arrays. -/
theorem final (c : Dev nD) : (dats m 0 c).arrAt 3 cfg0.N = G m c :=
  (dats m 0 c).arrAt_eq_of_cover 3 (G m c) (fun t _ => flushed_eq m c t) (cover)

/-- The kernel's run, read: the result array at `pool` of the arguments as launched, the arguments unchanged. -/
theorem run : θ_run defs (onTc (τ := τ) (main (F := Ideal))) ⟨m, fun _ => 0, ρ⟩ fun r => ∀ c : Dev nD,
      r.2.mem ((c : Thread nD τ).loc main_v0)
        = Cert.AttnPool.pool (m ((c : Thread nD τ).loc main_arg0) : S16384x64.Idx → EReal)
            (m ((c : Thread nD τ).loc main_arg1) : S16384x200x64.Idx → EReal) (m ((c : Thread nD τ).loc main_arg2) : S1x64.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceRow.lean ====
/-
  The reference program's result is `pool` of its arguments (at the ideal instance).

  The reference multiplies each key by its query, contracts the 64 features against the weight row, takes `tanh`:
  at `(r, l, 0)` the sum over `c` of `(K (r, l, c) * Q (r, c)) * W (0, c)`, which is the score of the specification by
  associativity of the product (`AttnPool.score_assoc`). Its softmax takes the maximum along the keys from `-∞`, takes
  the maximum of that with `-∞` once more (which changes nothing: `AttnPool.max_negInf`), subtracts, exponentiates,
  sums along the keys from `0`, divides. The result multiplies the weights into the keys and sums along the keys from `0`.
  Each stage is read at an index by the generated read-at-an-index lemmas; the one stage those do not read, the
  maximum along the keys, is the fold of `max` over the key coordinate (`Host.reduce_eq_fold_single`).
-/
import proofs.«166064_j68624987455577_2_alg».proof.Proof.Gen.ReferenceIdeal.Read
import proofs.«166064_j68624987455577_2_alg».proof.Proof.PoolSpec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (Q : S16384x64.Idx → EReal) (K : S16384x200x64.Idx → EReal) (W : S1x64.Idx → EReal)

/-! ## The generated index maps at indices written by coordinates -/

theorem lidx3 (r : Fin 16384) (l : Fin 200) (c : Fin 64) : lidx_main_v3 (ix3 r l (0 : Fin 1)) c = ix3 r l c :=
  funext fun a => Fin.ext (by match a with | ⟨0, _⟩ => rfl | ⟨1, _⟩ => rfl | ⟨2, _⟩ => rfl)
theorem ridx3 (r : Fin 16384) (l : Fin 200) (c : Fin 64) : ridx_main_v3 (ix3 r l (0 : Fin 1)) c = ix2 (0 : Fin 1) c :=
  funext fun a => Fin.ext (by match a with | ⟨0, _⟩ => rfl | ⟨1, _⟩ => rfl)
theorem idx01 (r : Fin 16384) (l : Fin 200) (c : Fin 64) : idx_main_v0 (idx_main_v1 (ix3 r l c)) = ix2 r c :=
  funext fun a => Fin.ext (by match a with | ⟨0, _⟩ => rfl | ⟨1, _⟩ => rfl)
theorem idx89 (r : Fin 16384) (l : Fin 200) : idx_main_v8 (idx_main_v9 (ix3 r l (0 : Fin 1))) = ix2 r (0 : Fin 1) :=
  funext fun a => Fin.ext (by match a with | ⟨0, _⟩ => rfl | ⟨1, _⟩ => rfl)
theorem idx12 (r : Fin 16384) (l : Fin 200) : idx_main_v12 (ix2 r (0 : Fin 1)) l = ix3 r l (0 : Fin 1) :=
  funext fun a => Fin.ext (by match a with | ⟨0, _⟩ => rfl | ⟨1, _⟩ => rfl | ⟨2, _⟩ => rfl)
theorem idx1314 (r : Fin 16384) (l : Fin 200) : idx_main_v13 (idx_main_v14 (ix3 r l (0 : Fin 1))) = ix2 r (0 : Fin 1) :=
  funext fun a => Fin.ext (by match a with | ⟨0, _⟩ => rfl | ⟨1, _⟩ => rfl)
theorem idx16 (r : Fin 16384) (l : Fin 200) (d : Fin 64) : idx_main_v16 (ix3 r l d) = ix3 r l (0 : Fin 1) :=
  funext fun a => Fin.ext (by match a with | ⟨0, _⟩ => rfl | ⟨1, _⟩ => rfl | ⟨2, _⟩ => rfl)
theorem idx18 (r : Fin 16384) (d : Fin 64) (l : Fin 200) : idx_main_v18 (ix2 r d) l = ix3 r l d :=
  funext fun a => Fin.ext (by match a with | ⟨0, _⟩ => rfl | ⟨1, _⟩ => rfl | ⟨2, _⟩ => rfl)

/-- The row functions of the specification at row `r` of the arrays. -/
abbrev qRow (r : Fin 16384) : Fin 64 → EReal := fun c => Q (ix2 r c)
abbrev wRow : Fin 64 → EReal := fun c => W (ix2 (0 : Fin 1) c)
abbrev kRow (r : Fin 16384) : Fin 200 → Fin 64 → EReal := fun l c => K (ix3 r l c)

/-! ## Stage by stage -/

/-- The score of key `l` of row `r`. -/
theorem score_apply (r : Fin 16384) (l : Fin 200) :
    val_main_v4 (F := Ideal) Q K W (ix3 r l (0 : Fin 1)) = Cert.AttnPool.score (qRow Q r) (wRow W) (kRow K r) l := by
  rw [val_main_v4_apply, val_main_v3_apply, ← Cert.AttnPool.score_assoc]
  refine congrArg Ideal.tanh (Finset.sum_congr rfl fun c _ => ?_)
  rw [lidx3, ridx3, val_main_v2_apply, val_main_v1_apply, val_main_v0_apply, idx01]
  rfl

/-- Inserting key `l` into the reduced index `(r, 0)` gives `(r, l, 0)`. -/
theorem lift_keys (h : S16384x200x1.Reduces [1] S16384x1) (r : Fin 16384) (l : Fin 200) :
    h.lift (ix2 r (0 : Fin 1)) l = ix3 r l (0 : Fin 1) :=
  funext fun ax => Fin.ext (by match ax with | ⟨0, _⟩ => rfl | ⟨1, _⟩ => rfl | ⟨2, _⟩ => rfl)

theorem reduces_keys : S16384x200x1.Reduces [1] S16384x1 := by decide

/-- The maximum along the keys from `-∞`, at row `r`, of any array of scores: the largest of the row's 200 entries. -/
theorem keysMax_apply (x : FVec Ideal S16384x200x1 .f32) (r : Fin 16384) :
    Host.reduce (FloatOps.maximumf (F := Ideal) (φ := .f32)) x (val_main_cst (F := Ideal)) reducesTo_S16384x200x1_S16384x1_d1 h_S_
        (ix2 r (0 : Fin 1))
      = Cert.AttnPool.top (fun l => x (ix3 r l (0 : Fin 1))) :=
  (Host.reduce_eq_fold_single (FloatOps.maximumf (F := Ideal) (φ := .f32)) x (val_main_cst (F := Ideal))
    reducesTo_S16384x200x1_S16384x1_d1 reduces_keys h_S_ (ix2 r (0 : Fin 1))).trans
    (congrArg (fun f : Fin 200 → EReal => Finset.fold max (Ideal.ofBits .f32 0xFF800000#32) f (Finset.univ : Finset (Fin 200)))
      (funext fun l => congrArg x (lift_keys reduces_keys r l)))

/-- The largest score of row `r`: the maximum along the keys, and once more against `-∞`. -/
theorem top_apply (r : Fin 16384) :
    val_main_v7 (F := Ideal) Q K W (ix2 r (0 : Fin 1)) = Cert.AttnPool.top (Cert.AttnPool.score (qRow Q r) (wRow W) (kRow K r)) := by
  rw [val_main_v7_apply, val_main_v6_apply, val_main_cst_0_apply]
  show max (Ideal.ofBits .f32 0xFF800000#32) (val_main_v5 (F := Ideal) Q K W (ix2 r (0 : Fin 1))) = _
  rw [Cert.AttnPool.max_negInf]
  unfold val_main_v5
  refine (keysMax_apply (val_main_v4 (F := Ideal) Q K W) r).trans ?_
  exact congrArg Cert.AttnPool.top (funext fun l => score_apply Q K W r l)

/-- The shifted exponential of the score of key `l` of row `r`. -/
theorem exp_apply (r : Fin 16384) (l : Fin 200) :
    val_main_v11 (F := Ideal) Q K W (ix3 r l (0 : Fin 1))
      = Ideal.exp (Cert.AttnPool.score (qRow Q r) (wRow W) (kRow K r) l - Cert.AttnPool.top (Cert.AttnPool.score (qRow Q r) (wRow W) (kRow K r))) := by
  rw [val_main_v11_apply, val_main_v10_apply, val_main_v9_apply, val_main_v8_apply, idx89, score_apply, top_apply]
  rfl

/-- The sum of row `r`'s shifted exponentials. -/
theorem sum_apply (r : Fin 16384) :
    val_main_v12 (F := Ideal) Q K W (ix2 r (0 : Fin 1))
      = ∑ l : Fin 200, Ideal.exp (Cert.AttnPool.score (qRow Q r) (wRow W) (kRow K r) l - Cert.AttnPool.top (Cert.AttnPool.score (qRow Q r) (wRow W) (kRow K r))) := by
  rw [val_main_v12_apply, val_main_cst_1_apply]
  show Ideal.ofBits .f32 0x00000000#32 + _ = _
  rw [Ideal.ofBits_zero_f32, zero_add]
  exact Finset.sum_congr rfl fun l _ => by rw [idx12, exp_apply]

/-- The softmax weight of key `l` of row `r`. -/
theorem weight_apply (r : Fin 16384) (l : Fin 200) :
    val_main_v15 (F := Ideal) Q K W (ix3 r l (0 : Fin 1)) = Cert.AttnPool.weight (Cert.AttnPool.score (qRow Q r) (wRow W) (kRow K r)) l := by
  rw [val_main_v15_apply, val_main_v14_apply, val_main_v13_apply, idx1314, exp_apply, sum_apply]
  rfl

/-- THE REFERENCE'S RESULT is `pool` of its arguments. -/
theorem result_eq : val_main_v18 (F := Ideal) Q K W = Cert.AttnPool.pool Q K W := by
  funext i
  obtain ⟨r, d, rfl⟩ : ∃ (r : Fin 16384) (d : Fin 64), i = ix2 r d := ⟨i 0, i 1, eq_ix2 i⟩
  rw [Cert.AttnPool.pool_ix2, val_main_v18_apply, val_main_cst_2_apply]
  show Ideal.ofBits .f32 0x00000000#32 + _ = _
  rw [Ideal.ofBits_zero_f32, zero_add]
  unfold Cert.AttnPool.rowPool
  refine Finset.sum_congr rfl fun l _ => ?_
  rw [idx18, val_main_v17_apply, val_main_v16_apply, idx16, weight_apply]
  rfl

end Cert.ReferenceIdeal.RefValue

end
-- ==== Proof.lean ====
/-
  Attention pooling of 16384 queries over 200 keys each: the tiled kernel against the plain reference, on the
  extended reals.

  Both programs compute, for each batch row `r` and feature `d`,
      out (r, d) = ∑ l, w l * K (r, l, d),   w l = exp (s l - max s) / ∑ l', exp (s l' - max s),
      s l = tanh (∑ c, K (r, l, c) · Q (r, c) · W (0, c)).
  The kernel runs over 128 blocks of 128 rows; in each it multiplies the query block by the weight row FIRST and
  contracts the keys against that product (a matrix product batched over the row), takes the row maximum and row sum
  of the scores by reductions along the keys, and contracts the weights against the keys by a second batched matrix
  product. The reference multiplies each key by its query first and contracts against the weight row last, and writes
  the last contraction as a product followed by a sum along the keys; its softmax takes one more maximum against `-∞`.
  On the extended reals the two are one function, `AttnPool.pool` (Proof/PoolSpec.lean):
    * `(k · q) · w = k · (q · w)`: the product of extended reals is associative, the infinities included;
    * `max (-∞) x = x`;
    * a matrix product into a zero accumulator, a `dot_general`, a sum along an axis from `0` and a product followed by
      such a sum are the same finite sums, and the two maxima along the keys the same fold of `max` from `-∞`.
  No step divides out or distributes anything, so the inputs' finiteness is never used.
  The kernel side is Proof/KernelStages.lean (the body's stored value at an index) and Proof/KernelArray.lean (from the
  128 blocks to the whole array); the reference side is Proof/ReferenceRow.lean. The three frames are the programs'
  runs; the idealization rewrote nothing, so `preserves` asks nothing.
-/
import proofs.«166064_j68624987455577_2_alg».proof.Defs
import proofs.«166064_j68624987455577_2_alg».proof.Proof.Gen.Kernel
import proofs.«166064_j68624987455577_2_alg».proof.Proof.Gen.Kernel.Skeleton
import proofs.«166064_j68624987455577_2_alg».proof.Proof.Gen.Kernel.Launch
import proofs.«166064_j68624987455577_2_alg».proof.Proof.Gen.Kernel.Points
import proofs.«166064_j68624987455577_2_alg».proof.Proof.Gen.Kernel.Frame
import proofs.«166064_j68624987455577_2_alg».proof.Proof.Gen.KernelIdeal
import proofs.«166064_j68624987455577_2_alg».proof.Proof.Gen.KernelIdeal.Skeleton
import proofs.«166064_j68624987455577_2_alg».proof.Proof.Gen.KernelIdeal.Launch
import proofs.«166064_j68624987455577_2_alg».proof.Proof.Gen.KernelIdeal.Points
import proofs.«166064_j68624987455577_2_alg».proof.Proof.Gen.KernelIdeal.Frame
import proofs.«166064_j68624987455577_2_alg».proof.Proof.Gen.ReferenceIdeal
import proofs.«166064_j68624987455577_2_alg».proof.Proof.Gen.Pre_finite_inputs
import proofs.«166064_j68624987455577_2_alg».proof.Proof.Gen.KernelIdeal.Value
import proofs.«166064_j68624987455577_2_alg».proof.Proof.Gen.ReferenceIdeal.Run
import proofs.«166064_j68624987455577_2_alg».proof.Proof.Gen.ReferenceIdeal.Read
import proofs.«166064_j68624987455577_2_alg».proof.Proof.KernelArray
import proofs.«166064_j68624987455577_2_alg».proof.Proof.ReferenceRow
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array ends at `pool` of its arguments
    (Proof/KernelArray.lean) and the reference's at its composed host operations, which are `pool` of its arguments
    (Proof/ReferenceRow.lean): equal arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
